-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x32 : Shape := ⟨2, ![1600000, 32]⟩
abbrev S32 : Shape := ⟨1, ![32]⟩
abbrev S160x256 : Shape := ⟨2, ![160, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S32 : S_.BroadcastsInDim S32 (![] : Fin 0 → Fin S32.rank)
  reducesTo_S32_S_d0 : S32.ReducesTo [0] S_
  bcast_S_S160x256 : S_.BroadcastsInDim S160x256 (![] : Fin 0 → Fin S160x256.rank)
  reducesTo_S160x256_S_d0_1 : S160x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256 .f32) (main_arg5 : FVec F S256x64 .f32) (main_arg6 : FVec F S64 .f32) (main_v13 : IVec S_ 1) (main_v16 : IVec S160x256 1) : IVec S_ 1 :=
  let main_c_5 : IVec S_ 1 := constantI S_ 1 1#1
  let main_v17 : IVec S_ 1 := (fun x v => Host.reduce IntOp.andi x v reducesTo_S160x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S1600000x32 .f32) (main_arg2 : FVec F S32 .f32) (main_arg3 : FVec F S160x256 .f32) (main_arg4 : FVec F S256 .f32) (main_arg5 : FVec F S256x64 .f32) (main_arg6 : FVec F S64 .f32) (main_arg7 : IVec S1600000 32) (main_arg8 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S160x256 .f32 := Host.absf main_arg3
  let main_cst_4 : FVec F S_ .f32 := constant S_ .f32 0x7F800000#32
  let main_v15 : FVec F S160x256 .f32 := broadcastInDim S160x256 ![] bcast_S_S160x256 main_cst_4
  let main_v16 : IVec S160x256 1 := cmpf .olt main_v14 main_v15
  fn_part1 (F := F) main_arg4 main_arg5 main_arg6 main_v13 main_v16
-- ==== Kernel.lean ====
abbrev S50000x64 : Shape := ⟨2, ![50000, 64]⟩
abbrev S1600000x32 : Shape := ⟨2, ![1600000, 32]⟩
abbrev S32 : Shape := ⟨1, ![32]⟩
abbrev S160x256 : Shape := ⟨2, ![160, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S50000x32 : Shape := ⟨2, ![50000, 32]⟩
abbrev S1600000x1 : Shape := ⟨2, ![1600000, 1]⟩
abbrev S50000x1 : Shape := ⟨2, ![50000, 1]⟩
abbrev S1x32 : Shape := ⟨2, ![1, 32]⟩
abbrev S1x256 : Shape := ⟨2, ![1, 256]⟩
abbrev S1x64 : Shape := ⟨2, ![1, 64]⟩
abbrev S2000x32 : Shape := ⟨2, ![2000, 32]⟩
abbrev S2000x64 : Shape := ⟨2, ![2000, 64]⟩
abbrev S2000x160 : Shape := ⟨2, ![2000, 160]⟩
abbrev S2000x256 : Shape := ⟨2, ![2000, 256]⟩

abbrev nBuf : Space → Nat
  | .hbm => 43
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S1600000x32, .f32⟩
  | .hbm, ⟨2, _⟩ => ⟨S32, .f32⟩
  | .hbm, ⟨3, _⟩ => ⟨S160x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S50000x32, .f32⟩
  | .hbm, ⟨11, _⟩ => ⟨S1600000x1, .i32⟩
  | .hbm, ⟨12, _⟩ => ⟨S50000x32, .f32⟩
  | .hbm, ⟨13, _⟩ => ⟨S_, .f32⟩
  | .hbm, ⟨14, _⟩ => ⟨S1600000x1, .f32⟩
  | .hbm, ⟨15, _⟩ => ⟨S_, .f32⟩
  | .hbm, ⟨16, _⟩ => ⟨S50000x1, .f32⟩
  | .hbm, ⟨17, _⟩ => ⟨S1600000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S50000x32, .f32⟩
  | .hbm, ⟨26, _⟩ => ⟨S1600000x1, .i32⟩
  | .hbm, ⟨27, _⟩ => ⟨S50000x32, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S50000x1, .f32⟩
  | .hbm, ⟨32, _⟩ => ⟨S1600000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x32, .f32⟩
  | .hbm, ⟨38, _⟩ => ⟨S50000x32, .f32⟩
  | .hbm, ⟨39, _⟩ => ⟨S1x32, .f32⟩
  | .hbm, ⟨40, _⟩ => ⟨S1x256, .f32⟩
  | .hbm, ⟨41, _⟩ => ⟨S1x64, .f32⟩
  | .hbm, ⟨42, _⟩ => ⟨S50000x64, .f32⟩
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S2000x64, .f32⟩
  | .local _ .vmem, ⟨5, _⟩ => ⟨S2000x64, .f32⟩
  | .local _ .vmem, ⟨6, _⟩ => ⟨S1x32, .f32⟩
  | .local _ .vmem, ⟨7, _⟩ => ⟨S160x256, .f32⟩
  | .local _ .vmem, ⟨8, _⟩ => ⟨S1x256, .f32⟩
  | .local _ .vmem, ⟨9, _⟩ => ⟨S256x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S50000x32 : S_.BroadcastsInDim S50000x32 (![] : Fin 0 → Fin S50000x32.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  shapeCasts_S32_S1x32 : S32.ShapeCasts S1x32
  shapeCasts_S256_S1x256 : S256.ShapeCasts S1x256
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x64_S2000x64_0_0 : ∀ a, (![0, 0] : Fin 2 → Nat) a + S2000x64.size a ≤ S2000x64.size a
  h_S2000x64 : 0 < S2000x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S2000x32_S2000x32_S2000x64_S2000x32_S2000x160_d1 : Shape.Concatenates [S2000x32, S2000x32, S2000x64, S2000x32] S2000x160 1
  bitsLt_bf16_f32 : FTy.bits .bf16 < FTy.bits .f32
  inb_S160x256_S160x256_0_0 : ∀ a, (![0, 0] : Fin 2 → Nat) a + S160x256.size a ≤ S160x256.size a
  h_S160x256 : 0 < S160x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S2000x160_S160x256_S2000x256_1_0_0_1_n_n_wf : DotDims.WF S2000x160 S160x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S50000x32.size a
  hwx0_1 : ∀ i : grid0.Coords, EltTy.bits .f32 = 32 ∨ (Rect.block (s := S50000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160x256.size a ≤ S160x256.size a
  hwx0_4 : ∀ i : grid0.Coords, EltTy.bits .f32 = 32 ∨ (Rect.block (s := S160x256) S160x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)

variable [Facts₀]

def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S2000x160_S160x256_S2000x256_1_0_0_1_n_n : DotDims S2000x160 S160x256 S2000x256 where
  lhsContracting := [1]
  rhsContracting := [0]
  lhsNonContracting := [0]
  rhsNonContracting := [1]
  lhsBatch := []
  rhsBatch := []
  wf := dot_S2000x160_S160x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v10) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S160x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000x32 : Shape := ⟨2, ![1600000, 32]⟩
abbrev S32 : Shape := ⟨1, ![32]⟩
abbrev S160x256 : Shape := ⟨2, ![160, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S50000x32 : Shape := ⟨2, ![50000, 32]⟩
abbrev S1600000x1 : Shape := ⟨2, ![1600000, 1]⟩
abbrev S50000x1 : Shape := ⟨2, ![50000, 1]⟩
abbrev S1x32 : Shape := ⟨2, ![1, 32]⟩
abbrev S50000x160 : Shape := ⟨2, ![50000, 160]⟩
abbrev S50000x256 : Shape := ⟨2, ![50000, 256]⟩
abbrev S1x256 : Shape := ⟨2, ![1, 256]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x32, .f32⟩
  | .hbm, ⟨2, _⟩ => ⟨S32, .f32⟩
  | .hbm, ⟨3, _⟩ => ⟨S160x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S50000x32, .f32⟩
  | .hbm, ⟨11, _⟩ => ⟨S1600000x1, .i32⟩
  | .hbm, ⟨12, _⟩ => ⟨S50000x32, .f32⟩
  | .hbm, ⟨13, _⟩ => ⟨S_, .f32⟩
  | .hbm, ⟨14, _⟩ => ⟨S1600000x1, .f32⟩
  | .hbm, ⟨15, _⟩ => ⟨S_, .f32⟩
  | .hbm, ⟨16, _⟩ => ⟨S50000x1, .f32⟩
  | .hbm, ⟨17, _⟩ => ⟨S1600000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S50000x32, .f32⟩
  | .hbm, ⟨26, _⟩ => ⟨S1600000x1, .i32⟩
  | .hbm, ⟨27, _⟩ => ⟨S50000x32, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S50000x1, .f32⟩
  | .hbm, ⟨32, _⟩ => ⟨S1600000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x32, .f32⟩
  | .hbm, ⟨38, _⟩ => ⟨S50000x32, .f32⟩
  | .hbm, ⟨39, _⟩ => ⟨S1x32, .f32⟩
  | .hbm, ⟨40, _⟩ => ⟨S50000x32, .f32⟩
  | .hbm, ⟨41, _⟩ => ⟨S50000x160, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  concatenates_S50000x32_S50000x32_S50000x64_S50000x32_S50000x160_d1 : Shape.Concatenates [S50000x32, S50000x32, S50000x64, S50000x32] S50000x160 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S50000x160_S160x256_S50000x256_1_0_0_1_n_n_wf : DotDims.WF S50000x160 S160x256 S50000x256 [1] [0] [0] [1] [] []
  dot_S50000x256_S256x64_S50000x64_1_0_0_1_n_n_wf : DotDims.WF S50000x256 S256x64 S50000x64 [1] [0] [0] [1] [] []

variable [Facts₀]

def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x160_S160x256_S50000x256_1_0_0_1_n_n : DotDims S50000x160 S160x256 S50000x256 where
  lhsContracting := [1]
  rhsContracting := [0]
  lhsNonContracting := [0]
  rhsNonContracting := [1]
  lhsBatch := []
  rhsBatch := []
  wf := dot_S50000x160_S160x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibConcatFour.lean ====
/-
  Four matrices with the same number of rows laid side by side — a concatenation along the column axis — read
  at one entry. The joined row is the four rows laid end to end: entry `q` belongs to the piece whose span of
  columns holds `q`, at `q` less the widths of the pieces before it. The same row count and the four widths are
  parameters, so the statement serves a block of rows inside a kernel and a whole array on the host alike.
-/
import Idealize.ShloMosaic.Lib.Pipeline.Value
import Idealize.ShloMosaic.Lib.ValueIdx

namespace Cert.Lib.ConcatFour

open Idealize.ShloMosaic Idealize.ShloMosaic.ValueIdx

variable {α : Type}

/-- Four rows of widths `n0`, `n1`, `n2`, `n3` laid end to end into one row of width `N`: entry `q` is the entry
    of the piece whose span holds `q`. -/
def join4 {n0 n1 n2 n3 N : ℕ} (hN : N = n0 + n1 + n2 + n3) (a : Fin n0 → α) (b : Fin n1 → α) (c : Fin n2 → α)
    (d : Fin n3 → α) (q : Fin N) : α :=
  if h0 : q.val < n0 then a ⟨q.val, h0⟩
  else if h1 : q.val < n0 + n1 then b ⟨q.val - n0, by omega⟩
  else if h2 : q.val < n0 + n1 + n2 then c ⟨q.val - (n0 + n1), by omega⟩
  else d ⟨q.val - (n0 + n1 + n2), by have := q.isLt; omega⟩

/-- Four matrices `[R, n0]`, `[R, n1]`, `[R, n2]`, `[R, n3]` concatenated along axis 1 into `[R, N]`, read at
    `(p, q)`: row `p` of the result is the four rows `p` laid end to end. -/
theorem concat4_apply {R n0 n1 n2 n3 N : ℕ} (hN : N = n0 + n1 + n2 + n3)
    (x0 : (⟨2, ![R, n0]⟩ : Shape).Idx → α) (x1 : (⟨2, ![R, n1]⟩ : Shape).Idx → α)
    (x2 : (⟨2, ![R, n2]⟩ : Shape).Idx → α) (x3 : (⟨2, ![R, n3]⟩ : Shape).Idx → α)
    (h : Shape.Concatenates (([⟨⟨2, ![R, n0]⟩, x0⟩, ⟨⟨2, ![R, n1]⟩, x1⟩, ⟨⟨2, ![R, n2]⟩, x2⟩, ⟨⟨2, ![R, n3]⟩, x3⟩] :
      List ((s : Shape) × (s.Idx → α))).map (·.1)) ⟨2, ![R, N]⟩ 1)
    (p : Fin R) (q : Fin N) :
    concatenate ⟨2, ![R, N]⟩ 1 [⟨⟨2, ![R, n0]⟩, x0⟩, ⟨⟨2, ![R, n1]⟩, x1⟩, ⟨⟨2, ![R, n2]⟩, x2⟩, ⟨⟨2, ![R, n3]⟩, x3⟩] h (ix2 p q)
      = join4 hN (fun j => x0 (ix2 p j)) (fun j => x1 (ix2 p j)) (fun j => x2 (ix2 p j)) (fun j => x3 (ix2 p j)) q := by
  have hoff : ∀ {n : ℕ} (e : Fin n) (b : Fin 2) (hb : b.cast (rfl : (2 : ℕ) = 2) ≠ (1 : Fin 2)),
      ((ix2 p e : (⟨2, ![R, n]⟩ : Shape).Idx) b).val = ((ix2 p q : (⟨2, ![R, N]⟩ : Shape).Idx) (b.cast rfl)).val := by
    intro n e b hb
    match b, hb with
    | ⟨0, _⟩, _ => rfl
    | ⟨1, _⟩, hb => exact absurd (Fin.ext rfl) hb
  unfold join4
  by_cases h0 : q.val < n0
  · rw [dif_pos h0]
    exact concatenate_apply_piece 1 _ h (ix2 p q) 0 (by show (0 : ℕ) < 4; omega) _ x0 rfl rfl 0 rfl (ix2 p ⟨q.val, h0⟩)
      (fun b hb => hoff _ b hb) (by show 0 + q.val = q.val; omega)
  · rw [dif_neg h0]
    by_cases h1 : q.val < n0 + n1
    · rw [dif_pos h1]
      exact concatenate_apply_piece 1 _ h (ix2 p q) 1 (by show (1 : ℕ) < 4; omega) _ x1 rfl rfl n0 rfl (ix2 p ⟨q.val - n0, by omega⟩)
        (fun b hb => hoff _ b hb) (by show n0 + (q.val - n0) = q.val; omega)
    · rw [dif_neg h1]
      by_cases h2 : q.val < n0 + n1 + n2
      · rw [dif_pos h2]
        exact concatenate_apply_piece 1 _ h (ix2 p q) 2 (by show (2 : ℕ) < 4; omega) _ x2 rfl rfl (n0 + n1) rfl
          (ix2 p ⟨q.val - (n0 + n1), by omega⟩) (fun b hb => hoff _ b hb)
          (by show n0 + n1 + (q.val - (n0 + n1)) = q.val; omega)
      · rw [dif_neg h2]
        exact concatenate_apply_piece 1 _ h (ix2 p q) 3 (by show (3 : ℕ) < 4; omega) _ x3 rfl rfl (n0 + n1 + n2)
          (by show n0 + (n1 + (n2 + 0)) = n0 + n1 + n2; omega)
          (ix2 p ⟨q.val - (n0 + n1 + n2), by have := q.isLt; omega⟩) (fun b hb => hoff _ b hb)
          (by show n0 + n1 + n2 + (q.val - (n0 + n1 + n2)) = q.val; omega)

end Cert.Lib.ConcatFour
-- ==== Proof.NodeUpdate.lean ====
/-
  What one node's update computes, on the extended reals.

  A node has four groups of features: the mean of its incoming edges' features (32 numbers), the mean of its
  outgoing edges' features (32), its own features (64) and a context vector shared by all nodes (32). Laid end
  to end they form a row `x` of 160 numbers. The update is a two-layer perceptron applied to that row:

      h k = max (∑ j, x j · W1 (j, k) + b1 k) 0          (256 hidden units)
      y c = ∑ k, h k · W2 (k, c) + b2 c                  (64 outputs)

  Every sum here is a finite sum on the extended reals in one fixed arrangement, so the statement needs no
  finiteness of the inputs: both programs compute these very sums, and nothing is ever re-associated or distributed.
  The zero of the rectifier is kept as the float word `0x00000000`, the same word in both programs.
-/
import Idealize.ShloMosaic.PureOps.Ideal
import Idealize.ShloMosaic.Lib.ValueIdx
import proofs.«128134_j2740189135078_2_alg».proof.Proof.LibConcatFour

noncomputable section

open scoped BigOperators

namespace Cert.NodeUpdate

open Idealize.ShloMosaic Idealize.ShloMosaic.ValueIdx Cert.Lib.ConcatFour

/-- The row of 160 features of one node: incoming mean, outgoing mean, own features, context, end to end. -/
def features (inMean outMean : Fin 32 → EReal) (own : Fin 64 → EReal) (ctx : Fin 32 → EReal) : Fin 160 → EReal :=
  join4 (n0 := 32) (n1 := 32) (n2 := 64) (n3 := 32) (N := 160) rfl inMean outMean own ctx

/-- Hidden unit `k` of a feature row: the affine form of the row, rectified at zero. -/
def hidden (x : Fin 160 → EReal) (W1 : (⟨2, ![160, 256]⟩ : Shape).Idx → EReal) (b1 : Fin 256 → EReal) (k : Fin 256) : EReal :=
  max (∑ j : Fin 160, x j * W1 (ix2 j k) + b1 k) (Ideal.ofBits .f32 0x00000000#32)

/-- Output `c` of a feature row: the affine form of its hidden units. -/
def output (x : Fin 160 → EReal) (W1 : (⟨2, ![160, 256]⟩ : Shape).Idx → EReal) (b1 : Fin 256 → EReal)
    (W2 : (⟨2, ![256, 64]⟩ : Shape).Idx → EReal) (b2 : Fin 64 → EReal) (c : Fin 64) : EReal :=
  ∑ k : Fin 256, hidden x W1 b1 k * W2 (ix2 k c) + b2 c

/-- The updated features of all 50000 nodes, from the two arrays of edge means, the nodes' own features, the
    context and the perceptron's weights: row `r` is `output` of node `r`'s feature row. -/
def update (inMean outMean : (⟨2, ![50000, 32]⟩ : Shape).Idx → EReal) (own : (⟨2, ![50000, 64]⟩ : Shape).Idx → EReal)
    (ctx : (⟨1, ![32]⟩ : Shape).Idx → EReal) (W1 : (⟨2, ![160, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal :=
  fun i => output (features (fun q => inMean (ix2 (i 0) q)) (fun q => outMean (ix2 (i 0) q)) (fun q => own (ix2 (i 0) q))
    (fun q => ctx (ix1 q))) W1 (fun k => b1 (ix1 k)) W2 (fun c => b2 (ix1 c)) (i 1)

end Cert.NodeUpdate

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelRow.lean ====
/-
  One entry of what the kernel body stores, as the node update of one row of its blocks.

  At a grid point the body holds 2000 rows of each per-node array (the two edge means, the nodes' own features)
  and the whole of the shared ones (the context as a `[1, 32]` row, the two weight matrices, the two biases as
  rows). It lays the four feature groups of each row side by side, multiplies by `W1` on the matrix unit into a
  zero accumulator, adds the bias row, rectifies, multiplies by `W2` and adds the second bias row. Read at entry
  `(p, c)` of the block, with the roundings to bf16 the identity on the extended reals, this is `output` of row
  `p`'s features: a matrix product into zero is the plain sum over the contracted coordinate, and a `[1, n]` row
  broadcast down the rows reads its column.
-/
import proofs.«128134_j2740189135078_2_alg».proof.Proof.Gen.KernelIdeal.Skeleton
import proofs.«128134_j2740189135078_2_alg».proof.Proof.NodeUpdate
import proofs.«128134_j2740189135078_2_alg».proof.Proof.LibContractPlain
import Idealize.ShloMosaic.Lib.ValueLayout
import Idealize.ShloMosaic.Lib.Pipeline.Value
import Idealize.ShloMosaic.Lib.ValueIdx

noncomputable section

open scoped BigOperators

namespace Cert.KernelIdeal.Row

open Cert.KernelIdeal Cert.KernelIdeal.Gen Idealize.ShloMosaic Idealize.ShloMosaic.ValueIdx
open Cert.NodeUpdate Cert.Lib.ConcatFour Cert.Lib.ContractPlain

/-- Row `p` of the block the body builds for the first matrix product — the two blocks of edge means, the block of
    own features and the context row repeated down the rows, side by side — is the feature row of the block's
    row `p`. -/
theorem featureRow_apply (x0 x1 : Vec Ideal S2000x32 .f32) (x2 : Vec Ideal S2000x64 .f32) (x3 : Vec Ideal S1x32 .f32)
    (h0 h1 : S2000x32.ShapeCasts S2000x32) (h2 h3 : S1x32.ShapeCasts S1x32) (h4 : S1x32.Broadcasts S2000x32)
    (hc : Shape.Concatenates (([⟨S2000x32, shapeCast S2000x32 x0 h0⟩, ⟨S2000x32, shapeCast S2000x32 x1 h1⟩, ⟨S2000x64, x2⟩,
      ⟨S2000x32, broadcastTo S2000x32 (shapeCast S1x32 (shapeCast S1x32 x3 h2) h3) h4⟩] :
        List ((s : Shape) × (s.Idx → Ideal .f32))).map (·.1)) S2000x160 1)
    (p : Fin 2000) (j : Fin 160) :
    concatenate S2000x160 1 [⟨S2000x32, shapeCast S2000x32 x0 h0⟩, ⟨S2000x32, shapeCast S2000x32 x1 h1⟩, ⟨S2000x64, x2⟩,
      ⟨S2000x32, broadcastTo S2000x32 (shapeCast S1x32 (shapeCast S1x32 x3 h2) h3) h4⟩] hc (ix2 p j)
      = features (fun q => x0 (ix2 p q)) (fun q => x1 (ix2 p q)) (fun q => x2 (ix2 p q)) (fun q => x3 (ix2 (0 : Fin 1) q)) j := by
  refine (concat4_apply (N := 160) rfl _ _ _ _ hc p j).trans ?_
  unfold features
  have e0 : (fun q : Fin 32 => shapeCast S2000x32 x0 h0 (ix2 p q)) = fun q => x0 (ix2 p q) := by
    rw [shapeCast_self]
  have e1 : (fun q : Fin 32 => shapeCast S2000x32 x1 h1 (ix2 p q)) = fun q => x1 (ix2 p q) := by
    rw [shapeCast_self]
  have e3 : (fun q : Fin 32 => broadcastTo S2000x32 (shapeCast S1x32 (shapeCast S1x32 x3 h2) h3) h4 (ix2 p q))
      = fun q => x3 (ix2 (0 : Fin 1) q) := by
    funext q
    rw [shapeCast_self, shapeCast_self]
    exact broadcastTo_1b_ab_apply x3 h4 p q
  rw [e0, e1, e3]

/-- Hidden unit `k` of row `p`: the first matrix product into the zero accumulator, plus the bias row repeated
    down the rows, rectified. -/
theorem hiddenRow_apply (X : FVec Ideal S2000x160 .bf16) (x4 : Vec Ideal S160x256 .f32) (x5 : Vec Ideal S1x256 .f32)
    (hb : FTy.bf16.bits < FTy.f32.bits) (h5 : S1x256.ShapeCasts S1x256) (h6 : S1x256.Broadcasts S2000x256)
    (p : Fin 2000) (k : Fin 256) :
    maximumf (addf (matmul dot_S2000x160_S160x256_S2000x256_1_0_0_1_n_n none X (truncf .bf16 x4 hb)
        (constant S2000x256 .f32 0x00000000#32)) (broadcastTo S2000x256 (shapeCast S1x256 x5 h5) h6))
      (broadcast S2000x256 (Scalar.ofBits (F := Ideal) .f32 0x00000000#32)) (ix2 p k)
      = hidden (fun j => X (ix2 p j)) x4 (fun k => x5 (ix2 (0 : Fin 1) k)) k := by
  show max (matmul dot_S2000x160_S160x256_S2000x256_1_0_0_1_n_n none X (truncf .bf16 x4 hb)
        (constant (F := Ideal) S2000x256 .f32 0x00000000#32) (ix2 p k)
      + broadcastTo S2000x256 (shapeCast S1x256 x5 h5) h6 (ix2 p k)) (Ideal.ofBits .f32 0x00000000#32) = _
  rw [matmulZero_apply dot_S2000x160_S160x256_S2000x256_1_0_0_1_n_n rfl none X (truncf .bf16 x4 hb) p k,
    shapeCast_self, broadcastTo_1b_ab_apply x5 h6 p k]
  rfl

/-- Output `c` of row `p`: the second matrix product into the zero accumulator plus the second bias row. -/
theorem outputRow_apply (H : FVec Ideal S2000x256 .bf16) (x6 : Vec Ideal S256x64 .f32) (x7 : Vec Ideal S1x64 .f32)
    (hb : FTy.bf16.bits < FTy.f32.bits) (h7 : S1x64.ShapeCasts S1x64) (h8 : S1x64.Broadcasts S2000x64)
    (p : Fin 2000) (c : Fin 64) :
    addf (matmul dot_S2000x256_S256x64_S2000x64_1_0_0_1_n_n none H (truncf .bf16 x6 hb)
        (constant S2000x64 .f32 0x00000000#32)) (broadcastTo S2000x64 (shapeCast S1x64 x7 h7) h8) (ix2 p c)
      = ∑ k : Fin 256, H (ix2 p k) * x6 (ix2 k c) + x7 (ix2 (0 : Fin 1) c) := by
  show matmul dot_S2000x256_S256x64_S2000x64_1_0_0_1_n_n none H (truncf .bf16 x6 hb)
        (constant (F := Ideal) S2000x64 .f32 0x00000000#32) (ix2 p c)
      + broadcastTo S2000x64 (shapeCast S1x64 x7 h7) h8 (ix2 p c) = _
  rw [matmulZero_apply dot_S2000x256_S256x64_S2000x64_1_0_0_1_n_n rfl none H (truncf .bf16 x6 hb) p c,
    shapeCast_self, broadcastTo_1b_ab_apply x7 h8 p c]
  rfl

/-- Entry `(p, c)` of the block the body stores is output `c` of the node update of row `p` of its input blocks. -/
theorem payload_apply (x0 x1 : Vec Ideal S2000x32 .f32) (x2 : Vec Ideal S2000x64 .f32) (x3 : Vec Ideal S1x32 .f32)
    (x4 : Vec Ideal S160x256 .f32) (x5 : Vec Ideal S1x256 .f32) (x6 : Vec Ideal S256x64 .f32) (x7 : Vec Ideal S1x64 .f32)
    (p : Fin 2000) (c : Fin 64) :
    k0_pay1 (F := Ideal) x0 x1 x2 x3 x4 x5 x6 x7 (ix2 p c)
      = output (features (fun q => x0 (ix2 p q)) (fun q => x1 (ix2 p q)) (fun q => x2 (ix2 p q))
          (fun q => x3 (ix2 (0 : Fin 1) q))) x4 (fun k => x5 (ix2 (0 : Fin 1) k)) x6 (fun c => x7 (ix2 (0 : Fin 1) c)) c := by
  unfold k0_pay1
  refine (outputRow_apply _ x6 x7 _ _ _ p c).trans ?_
  unfold output
  refine congrArg (· + x7 (ix2 (0 : Fin 1) c)) (Finset.sum_congr rfl fun k _ => congrArg (· * x6 (ix2 k c)) ?_)
  refine (hiddenRow_apply _ x4 x5 _ _ _ p k).trans ?_
  refine congrArg (fun x => hidden x x4 (fun k => x5 (ix2 (0 : Fin 1) k)) k) (funext fun j => ?_)
  exact featureRow_apply x0 x1 x2 x3 Facts₀.shapeCasts_S2000x32_S2000x32 Facts₀.shapeCasts_S2000x32_S2000x32
    Facts₀.shapeCasts_S1x32_S1x32 Facts₀.shapeCasts_S1x32_S1x32 Facts₀.broadcasts_S1x32_S2000x32
    Facts₀.concatenates_S2000x32_S2000x32_S2000x64_S2000x32_S2000x160_d1 p j

end Cert.KernelIdeal.Row

end
-- ==== Proof.KernelArray.lean ====
/-
  From the blocks to the whole array: what the kernel's program leaves in its result array.

  The grid has 25 points. Point `t` fetches rows `2000 t … 2000 t + 1999` of the two arrays of edge means and of the
  nodes' own features, and the whole of the context row, the weights and the bias rows (whose block index never
  moves); it writes back rows `2000 t … 2000 t + 1999` of the result. The body's stored block, entry by entry, is
  the node update of the fetched rows, so what point `t` writes back is block `t` of the whole-array update; the 25
  blocks tile the 50000 rows (row `r` lies in block `r / 2000`), so the result array ends holding the update.
  The context and the biases reach the kernel as `[1, n]` rows, reshaped from the argument vectors by the host:
  the row read at column `q` is the vector at `q`.

  A block's element sits at block index × block size + its coordinate inside the block. The reads of the blocks
  are first stated for arbitrary contents of the arrays, so that the long host computation that fills them before
  the region is never opened to compare two spellings of one array.
-/
import proofs.«128134_j2740189135078_2_alg».proof.Proof.Gen.KernelIdeal.Value
import proofs.«128134_j2740189135078_2_alg».proof.Proof.KernelRow
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.NodeUpdate

variable (m : (ℓ : Loc nD τ sig) → Buf (Elt Ideal) ℓ) (ρ : Dev nD → PrngReg)

/-! ## The index maps -/

theorem zeroOffsets : (![0, 0] : Fin 2 → Nat) = fun _ => 0 := funext fun a => by fin_cases a <;> rfl

/-- Window 0's block index at point `t`: block `t` along the rows, decided over the 25 points. -/
theorem index0 : ∀ t : Fin cfg0.N, win0_0.index t (0 : Fin 2) = t.val ∧ win0_0.index t (1 : Fin 2) = 0 :=
  (by decide +kernel : ∀ t : Fin grid0.N, _)
/-- Window 1's block index at point `t`: block `t` along the rows, decided over the 25 points. -/
theorem index1 : ∀ t : Fin cfg0.N, win0_1.index t (0 : Fin 2) = t.val ∧ win0_1.index t (1 : Fin 2) = 0 :=
  (by decide +kernel : ∀ t : Fin grid0.N, _)
/-- Window 2's block index at point `t`: block `t` along the rows, decided over the 25 points. -/
theorem index2 : ∀ t : Fin cfg0.N, win0_2.index t (0 : Fin 2) = t.val ∧ win0_2.index t (1 : Fin 2) = 0 :=
  (by decide +kernel : ∀ t : Fin grid0.N, _)
/-- Window 3's block index at point `t`: always the one block, decided over the 25 points. -/
theorem index3 : ∀ t : Fin cfg0.N, win0_3.index t (0 : Fin 2) = 0 ∧ win0_3.index t (1 : Fin 2) = 0 :=
  (by decide +kernel : ∀ t : Fin grid0.N, _)
/-- Window 4's block index at point `t`: always the one block, decided over the 25 points. -/
theorem index4 : ∀ t : Fin cfg0.N, win0_4.index t (0 : Fin 2) = 0 ∧ win0_4.index t (1 : Fin 2) = 0 :=
  (by decide +kernel : ∀ t : Fin grid0.N, _)
/-- Window 5's block index at point `t`: always the one block, decided over the 25 points. -/
theorem index5 : ∀ t : Fin cfg0.N, win0_5.index t (0 : Fin 2) = 0 ∧ win0_5.index t (1 : Fin 2) = 0 :=
  (by decide +kernel : ∀ t : Fin grid0.N, _)
/-- Window 6's block index at point `t`: always the one block, decided over the 25 points. -/
theorem index6 : ∀ t : Fin cfg0.N, win0_6.index t (0 : Fin 2) = 0 ∧ win0_6.index t (1 : Fin 2) = 0 :=
  (by decide +kernel : ∀ t : Fin grid0.N, _)
/-- Window 7's block index at point `t`: always the one block, decided over the 25 points. -/
theorem index7 : ∀ t : Fin cfg0.N, win0_7.index t (0 : Fin 2) = 0 ∧ win0_7.index t (1 : Fin 2) = 0 :=
  (by decide +kernel : ∀ t : Fin grid0.N, _)
/-- Window 8's block index at point `t`: block `t` along the rows, decided over the 25 points. -/
theorem index8 : ∀ t : Fin cfg0.N, win0_8.index t (0 : Fin 2) = t.val ∧ win0_8.index t (1 : Fin 2) = 0 :=
  (by decide +kernel : ∀ t : Fin grid0.N, _)

/-! ## Each input window's block, read where the output's block says -/

/-- Row `p` of window 0's block at point `t` is row `2000 t + p` of its array, whatever the arrays hold. -/
theorem read0 (c : Dev nD) (W : (b : Ref sig .tc) → Buf (Elt Ideal) ((c : Thread nD τ).loc b)) (t : Fin cfg0.N) (p : Fin 2000) (r : Fin 50000)
    (hr : r.val = t.val * 2000 + p.val) (q : Fin 32) :
    ((cfg0.win 0).blk t).view.read (Elt Ideal) (W (Pipeline.arrRef spec0 0)) (ix2 p q) = (W main_v10 : S50000x32.Idx → EReal) (ix2 r q) := by
  obtain ⟨e0, e1⟩ := index0 t
  show (W main_v10 : S50000x32.Idx → EReal) (((cfg0.win 0).blk t).view.emb (ix2 p q)) = _
  refine congrArg (W main_v10 : S50000x32.Idx → EReal) (funext fun a => Fin.ext ?_)
  match a with
  | ⟨0, _⟩ => show win0_0.index t (0 : Fin 2) * 2000 + 1 * p.val = r.val; omega
  | ⟨1, _⟩ => show win0_0.index t (1 : Fin 2) * 32 + 1 * q.val = q.val; omega

theorem block0_apply (c : Dev nD) (t : Fin cfg0.N) (p : Fin 2000) (r : Fin 50000) (hr : r.val = t.val * 2000 + p.val) (q : Fin 32) :
    iblk m c 0 t (ix2 p q) = (V m c main_v10 : S50000x32.Idx → EReal) (ix2 r q) := by
  unfold iblk
  exact read0 c (V m c) t p r hr q

/-- Row `p` of window 1's block at point `t` is row `2000 t + p` of its array, whatever the arrays hold. -/
theorem read1 (c : Dev nD) (W : (b : Ref sig .tc) → Buf (Elt Ideal) ((c : Thread nD τ).loc b)) (t : Fin cfg0.N) (p : Fin 2000) (r : Fin 50000)
    (hr : r.val = t.val * 2000 + p.val) (q : Fin 32) :
    ((cfg0.win 1).blk t).view.read (Elt Ideal) (W (Pipeline.arrRef spec0 1)) (ix2 p q) = (W main_v21 : S50000x32.Idx → EReal) (ix2 r q) := by
  obtain ⟨e0, e1⟩ := index1 t
  show (W main_v21 : S50000x32.Idx → EReal) (((cfg0.win 1).blk t).view.emb (ix2 p q)) = _
  refine congrArg (W main_v21 : S50000x32.Idx → EReal) (funext fun a => Fin.ext ?_)
  match a with
  | ⟨0, _⟩ => show win0_1.index t (0 : Fin 2) * 2000 + 1 * p.val = r.val; omega
  | ⟨1, _⟩ => show win0_1.index t (1 : Fin 2) * 32 + 1 * q.val = q.val; omega

theorem block1_apply (c : Dev nD) (t : Fin cfg0.N) (p : Fin 2000) (r : Fin 50000) (hr : r.val = t.val * 2000 + p.val) (q : Fin 32) :
    iblk m c 1 t (ix2 p q) = (V m c main_v21 : S50000x32.Idx → EReal) (ix2 r q) := by
  unfold iblk
  exact read1 c (V m c) t p r hr q

/-- Row `p` of window 2's block at point `t` is row `2000 t + p` of its array, whatever the arrays hold. -/
theorem read2 (c : Dev nD) (W : (b : Ref sig .tc) → Buf (Elt Ideal) ((c : Thread nD τ).loc b)) (t : Fin cfg0.N) (p : Fin 2000) (r : Fin 50000)
    (hr : r.val = t.val * 2000 + p.val) (q : Fin 64) :
    ((cfg0.win 2).blk t).view.read (Elt Ideal) (W (Pipeline.arrRef spec0 2)) (ix2 p q) = (W main_arg0 : S50000x64.Idx → EReal) (ix2 r q) := by
  obtain ⟨e0, e1⟩ := index2 t
  show (W main_arg0 : S50000x64.Idx → EReal) (((cfg0.win 2).blk t).view.emb (ix2 p q)) = _
  refine congrArg (W main_arg0 : S50000x64.Idx → EReal) (funext fun a => Fin.ext ?_)
  match a with
  | ⟨0, _⟩ => show win0_2.index t (0 : Fin 2) * 2000 + 1 * p.val = r.val; omega
  | ⟨1, _⟩ => show win0_2.index t (1 : Fin 2) * 64 + 1 * q.val = q.val; omega

theorem block2_apply (c : Dev nD) (t : Fin cfg0.N) (p : Fin 2000) (r : Fin 50000) (hr : r.val = t.val * 2000 + p.val) (q : Fin 64) :
    iblk m c 2 t (ix2 p q) = (V m c main_arg0 : S50000x64.Idx → EReal) (ix2 r q) := by
  unfold iblk
  exact read2 c (V m c) t p r hr q

/-- Window 3's block at every point is its one-row array, whatever the arrays hold. -/
theorem read3 (c : Dev nD) (W : (b : Ref sig .tc) → Buf (Elt Ideal) ((c : Thread nD τ).loc b)) (t : Fin cfg0.N) (q : Fin 32) :
    ((cfg0.win 3).blk t).view.read (Elt Ideal) (W (Pipeline.arrRef spec0 3)) (ix2 (0 : Fin 1) q) = (W main_v22 : S1x32.Idx → EReal) (ix2 (0 : Fin 1) q) := by
  obtain ⟨e0, e1⟩ := index3 t
  show (W main_v22 : S1x32.Idx → EReal) (((cfg0.win 3).blk t).view.emb (ix2 (0 : Fin 1) q)) = _
  refine congrArg (W main_v22 : S1x32.Idx → EReal) (funext fun a => Fin.ext ?_)
  match a with
  | ⟨0, _⟩ => show win0_3.index t (0 : Fin 2) * 1 + 1 * 0 = 0; omega
  | ⟨1, _⟩ => show win0_3.index t (1 : Fin 2) * 32 + 1 * q.val = q.val; omega

theorem block3_apply (c : Dev nD) (t : Fin cfg0.N) (q : Fin 32) :
    iblk m c 3 t (ix2 (0 : Fin 1) q) = (V m c main_v22 : S1x32.Idx → EReal) (ix2 (0 : Fin 1) q) := by
  unfold iblk
  exact read3 c (V m c) t q

/-- Window 4's block at every point is its whole array, whatever the arrays hold. -/
theorem read4 (c : Dev nD) (W : (b : Ref sig .tc) → Buf (Elt Ideal) ((c : Thread nD τ).loc b)) (t : Fin cfg0.N) (y : S160x256.Idx) :
    ((cfg0.win 4).blk t).view.read (Elt Ideal) (W (Pipeline.arrRef spec0 4)) y = (W main_arg3 : S160x256.Idx → EReal) y := by
  obtain ⟨e0, e1⟩ := index4 t
  show (W main_arg3 : S160x256.Idx → EReal) (((cfg0.win 4).blk t).view.emb y) = _
  refine congrArg (W main_arg3 : S160x256.Idx → EReal) (funext fun a => Fin.ext ?_)
  match a with
  | ⟨0, _⟩ => show win0_4.index t (0 : Fin 2) * 160 + 1 * (y 0).val = (y 0).val; omega
  | ⟨1, _⟩ => show win0_4.index t (1 : Fin 2) * 256 + 1 * (y 1).val = (y 1).val; omega

theorem block4_eq (c : Dev nD) (t : Fin cfg0.N) :
    (iblk m c 4 t : S160x256.Idx → EReal) = (V m c main_arg3 : S160x256.Idx → EReal) := by
  unfold iblk
  exact funext fun y => read4 c (V m c) t y

/-- Window 5's block at every point is its one-row array, whatever the arrays hold. -/
theorem read5 (c : Dev nD) (W : (b : Ref sig .tc) → Buf (Elt Ideal) ((c : Thread nD τ).loc b)) (t : Fin cfg0.N) (q : Fin 256) :
    ((cfg0.win 5).blk t).view.read (Elt Ideal) (W (Pipeline.arrRef spec0 5)) (ix2 (0 : Fin 1) q) = (W main_v23 : S1x256.Idx → EReal) (ix2 (0 : Fin 1) q) := by
  obtain ⟨e0, e1⟩ := index5 t
  show (W main_v23 : S1x256.Idx → EReal) (((cfg0.win 5).blk t).view.emb (ix2 (0 : Fin 1) q)) = _
  refine congrArg (W main_v23 : S1x256.Idx → EReal) (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

theorem block5_apply (c : Dev nD) (t : Fin cfg0.N) (q : Fin 256) :
    iblk m c 5 t (ix2 (0 : Fin 1) q) = (V m c main_v23 : S1x256.Idx → EReal) (ix2 (0 : Fin 1) q) := by
  unfold iblk
  exact read5 c (V m c) t q

/-- Window 6's block at every point is its whole array, whatever the arrays hold. -/
theorem read6 (c : Dev nD) (W : (b : Ref sig .tc) → Buf (Elt Ideal) ((c : Thread nD τ).loc b)) (t : Fin cfg0.N) (y : S256x64.Idx) :
    ((cfg0.win 6).blk t).view.read (Elt Ideal) (W (Pipeline.arrRef spec0 6)) y = (W main_arg5 : S256x64.Idx → EReal) y := by
  obtain ⟨e0, e1⟩ := index6 t
  show (W main_arg5 : S256x64.Idx → EReal) (((cfg0.win 6).blk t).view.emb y) = _
  refine congrArg (W main_arg5 : S256x64.Idx → EReal) (funext fun a => Fin.ext ?_)
  match a with
  | ⟨0, _⟩ => show win0_6.index t (0 : Fin 2) * 256 + 1 * (y 0).val = (y 0).val; omega
  | ⟨1, _⟩ => show win0_6.index t (1 : Fin 2) * 64 + 1 * (y 1).val = (y 1).val; omega

theorem block6_eq (c : Dev nD) (t : Fin cfg0.N) :
    (iblk m c 6 t : S256x64.Idx → EReal) = (V m c main_arg5 : S256x64.Idx → EReal) := by
  unfold iblk
  exact funext fun y => read6 c (V m c) t y

/-- Window 7's block at every point is its one-row array, whatever the arrays hold. -/
theorem read7 (c : Dev nD) (W : (b : Ref sig .tc) → Buf (Elt Ideal) ((c : Thread nD τ).loc b)) (t : Fin cfg0.N) (q : Fin 64) :
    ((cfg0.win 7).blk t).view.read (Elt Ideal) (W (Pipeline.arrRef spec0 7)) (ix2 (0 : Fin 1) q) = (W main_v24 : S1x64.Idx → EReal) (ix2 (0 : Fin 1) q) := by
  obtain ⟨e0, e1⟩ := index7 t
  show (W main_v24 : S1x64.Idx → EReal) (((cfg0.win 7).blk t).view.emb (ix2 (0 : Fin 1) q)) = _
  refine congrArg (W main_v24 : S1x64.Idx → EReal) (funext fun a => Fin.ext ?_)
  match a with
  | ⟨0, _⟩ => show win0_7.index t (0 : Fin 2) * 1 + 1 * 0 = 0; omega
  | ⟨1, _⟩ => show win0_7.index t (1 : Fin 2) * 64 + 1 * q.val = q.val; omega

theorem block7_apply (c : Dev nD) (t : Fin cfg0.N) (q : Fin 64) :
    iblk m c 7 t (ix2 (0 : Fin 1) q) = (V m c main_v24 : S1x64.Idx → EReal) (ix2 (0 : Fin 1) q) := by
  unfold iblk
  exact read7 c (V m c) t q

/-! ## The rows the host reshaped -/

/-- The context reaches the kernel as a `[1, 32]` row reshaped from the vector: the row at column `q` is the vector at `q`. -/
theorem ctxRow_apply (c : Dev nD) (q : Fin 32) :
    (V m c main_v22 : S1x32.Idx → EReal) (ix2 (0 : Fin 1) q) = (m ((c : Thread nD τ).loc main_arg2) : S32.Idx → EReal) (ix1 q) := by
  have e : (V m c main_v22 : S1x32.Idx → EReal)
      = shapeCast S1x32 (m ((c : Thread nD τ).loc main_arg2) : S32.Idx → EReal) Facts₀.shapeCasts_S32_S1x32 := by
    dsimp only [Gen.V, Gen.hostOps0]; after_results_simp; rfl
  rw [e]; exact shapeCast_a_1a_apply _ _ 0 q

/-- The first bias reaches the kernel as a `[1, 256]` row reshaped from the vector. -/
theorem bias1Row_apply (c : Dev nD) (k : Fin 256) :
    (V m c main_v23 : S1x256.Idx → EReal) (ix2 (0 : Fin 1) k) = (m ((c : Thread nD τ).loc main_arg4) : S256.Idx → EReal) (ix1 k) := by
  have e : (V m c main_v23 : S1x256.Idx → EReal)
      = shapeCast S1x256 (m ((c : Thread nD τ).loc main_arg4) : S256.Idx → EReal) Facts₀.shapeCasts_S256_S1x256 := by
    dsimp only [Gen.V, Gen.hostOps0]; after_results_simp; rfl
  rw [e]; exact shapeCast_a_1a_apply _ _ 0 k

/-- The second bias reaches the kernel as a `[1, 64]` row reshaped from the vector. -/
theorem bias2Row_apply (c : Dev nD) (o : Fin 64) :
    (V m c main_v24 : S1x64.Idx → EReal) (ix2 (0 : Fin 1) o) = (m ((c : Thread nD τ).loc main_arg6) : S64.Idx → EReal) (ix1 o) := by
  have e : (V m c main_v24 : S1x64.Idx → EReal)
      = shapeCast S1x64 (m ((c : Thread nD τ).loc main_arg6) : S64.Idx → EReal) Facts₀.shapeCasts_S64_S1x64 := by
    dsimp only [Gen.V, Gen.hostOps0]; after_results_simp; rfl
  rw [e]; exact shapeCast_a_1a_apply _ _ 0 o

/-! ## The whole result -/

/-- The node update of the two arrays of edge means as the region finds them and of the argument arrays. -/
def result (c : Dev nD) : S50000x64.Idx → EReal :=
  update (V m c main_v10 : S50000x32.Idx → EReal) (V m c main_v21 : S50000x32.Idx → EReal)
    (m ((c : Thread nD τ).loc main_arg0) : S50000x64.Idx → EReal) (m ((c : Thread nD τ).loc main_arg2) : S32.Idx → EReal)
    (m ((c : Thread nD τ).loc main_arg3) : S160x256.Idx → EReal) (m ((c : Thread nD τ).loc main_arg4) : S256.Idx → EReal)
    (m ((c : Thread nD τ).loc main_arg5) : S256x64.Idx → EReal) (m ((c : Thread nD τ).loc main_arg6) : S64.Idx → EReal)

/-- Row `r`, column `o` of the whole-array update is output `o` of node `r`'s feature row. -/
theorem update_apply (A B : (⟨2, ![50000, 32]⟩ : Shape).Idx → EReal) (N : (⟨2, ![50000, 64]⟩ : Shape).Idx → EReal)
    (x : (⟨1, ![32]⟩ : Shape).Idx → EReal) (W1 : (⟨2, ![160, 256]⟩ : Shape).Idx → EReal) (b1 : (⟨1, ![256]⟩ : Shape).Idx → EReal)
    (W2 : (⟨2, ![256, 64]⟩ : Shape).Idx → EReal) (b2 : (⟨1, ![64]⟩ : Shape).Idx → EReal) (r : Fin 50000) (o : Fin 64) :
    update A B N x W1 b1 W2 b2 (ix2 r o)
      = output (features (fun q => A (ix2 r q)) (fun q => B (ix2 r q)) (fun q => N (ix2 r q)) (fun q => x (ix1 q)))
          W1 (fun k => b1 (ix1 k)) W2 (fun c => b2 (ix1 c)) o := rfl

/-- What the result window writes back at point `t`, for ANY stored block `X` and ANY whole array `G`: if row `p` of
    `X` is row `2000 t + p` of `G`, the stored block is block `t` of `G`. -/
theorem flushed_of (t : Fin cfg0.N) (X : S2000x64.Idx → EReal) (G : S50000x64.Idx → EReal)
    (h : ∀ (p : Fin 2000) (o : Fin 64) (r : Fin 50000), r.val = t.val * 2000 + p.val → X (ix2 p o) = G (ix2 r o)) :
    (cfg0.win 8).cut (grid0.coords t) X = ((cfg0.win 8).blk t).view.read (Elt Ideal) G := by
  funext j
  show X ((cfg0.win 8).xinj (grid0.coords t) j) = G (((cfg0.win 8).blk t).view.emb j)
  have hj0 : (j 0).val < 2000 := Nat.lt_of_lt_of_le (j 0).isLt ((cfg0.win 8).xsize_le (grid0.coords t) 0)
  have hj1 : (j 1).val < 64 := Nat.lt_of_lt_of_le (j 1).isLt ((cfg0.win 8).xsize_le (grid0.coords t) 1)
  have hN : grid0.N = 25 := N_0
  have ht : t.val < 25 := hN ▸ t.isLt
  obtain ⟨e0, e1⟩ := index8 t
  have ex : (cfg0.win 8).xinj (grid0.coords t) j = (ix2 (⟨(j 0).val, hj0⟩ : Fin 2000) (⟨(j 1).val, hj1⟩ : Fin 64) : S2000x64.Idx) :=
    funext fun a => Fin.ext (by match a with | ⟨0, _⟩ => rfl | ⟨1, _⟩ => rfl)
  have ee : ((cfg0.win 8).blk t).view.emb j
      = (ix2 (⟨t.val * 2000 + (j 0).val, by omega⟩ : Fin 50000) (⟨(j 1).val, hj1⟩ : Fin 64) : S50000x64.Idx) :=
    funext fun a => Fin.ext (by
      match a with
      | ⟨0, _⟩ => show win0_8.index t (0 : Fin 2) * 2000 + 1 * (j 0).val = t.val * 2000 + (j 0).val; omega
      | ⟨1, _⟩ => show win0_8.index t (1 : Fin 2) * 64 + 1 * (j 1).val = (j 1).val; omega)
  rw [ex, ee]
  exact h _ _ _ rfl

/-- What point `t` writes back is block `t` of the whole-array update. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zeroOffsets]
  simp only [View.ld_unit_zero (S := S2000x32) zeroOffsets, View.ld_unit_zero (S := S2000x64) zeroOffsets,
    View.ld_unit_zero (S := S1x32) zeroOffsets, View.ld_unit_zero (S := S160x256) zeroOffsets,
    View.ld_unit_zero (S := S1x256) zeroOffsets, View.ld_unit_zero (S := S256x64) zeroOffsets,
    View.ld_unit_zero (S := S1x64) zeroOffsets]
  refine flushed_of t (k0_pay1 (F := Ideal) (iblk m c 0 t) (iblk m c 1 t) (iblk m c 2 t) (iblk m c 3 t) (iblk m c 4 t)
    (iblk m c 5 t) (iblk m c 6 t) (iblk m c 7 t)) (result m c) (fun p o r hr => ?_)
  refine (Row.payload_apply (iblk m c 0 t) (iblk m c 1 t) (iblk m c 2 t) (iblk m c 3 t) (iblk m c 4 t) (iblk m c 5 t)
    (iblk m c 6 t) (iblk m c 7 t) p o).trans ?_
  unfold result
  rw [update_apply]
  have b0 : (fun q : Fin 32 => iblk m c 0 t (ix2 p q)) = fun q => (V m c main_v10 : S50000x32.Idx → EReal) (ix2 r q) :=
    funext fun q => block0_apply m c t p r hr q
  have b1 : (fun q : Fin 32 => iblk m c 1 t (ix2 p q)) = fun q => (V m c main_v21 : S50000x32.Idx → EReal) (ix2 r q) :=
    funext fun q => block1_apply m c t p r hr q
  have b2 : (fun q : Fin 64 => iblk m c 2 t (ix2 p q))
      = fun q => (m ((c : Thread nD τ).loc main_arg0) : S50000x64.Idx → EReal) (ix2 r q) :=
    funext fun q => (block2_apply m c t p r hr q).trans (congrFun (V_main_arg0 m c) _)
  have b3 : (fun q : Fin 32 => iblk m c 3 t (ix2 (0 : Fin 1) q))
      = fun q => (m ((c : Thread nD τ).loc main_arg2) : S32.Idx → EReal) (ix1 q) :=
    funext fun q => (block3_apply m c t q).trans (ctxRow_apply m c q)
  have b4 : (iblk m c 4 t : S160x256.Idx → EReal) = (m ((c : Thread nD τ).loc main_arg3) : S160x256.Idx → EReal) :=
    (block4_eq m c t).trans (V_main_arg3 m c)
  have b5 : (fun k : Fin 256 => iblk m c 5 t (ix2 (0 : Fin 1) k))
      = fun k => (m ((c : Thread nD τ).loc main_arg4) : S256.Idx → EReal) (ix1 k) :=
    funext fun k => (block5_apply m c t k).trans (bias1Row_apply m c k)
  have b6 : (iblk m c 6 t : S256x64.Idx → EReal) = (m ((c : Thread nD τ).loc main_arg5) : S256x64.Idx → EReal) :=
    (block6_eq m c t).trans (V_main_arg5 m c)
  have b7 : (fun o : Fin 64 => iblk m c 7 t (ix2 (0 : Fin 1) o))
      = fun o => (m ((c : Thread nD τ).loc main_arg6) : S64.Idx → EReal) (ix1 o) :=
    funext fun o => (block7_apply m c t o).trans (bias2Row_apply m c o)
  rw [b0, b1, b2, b3, b4, b5, b6, b7]

/-- An index of the result array is in point `t`'s block iff each coordinate is in the block's range on its axis. -/
theorem mem_block (t : Fin cfg0.N) (i : S50000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v25).slice (win0_8.rect t)).set ↔ _
  rw [View.set_slice_whole, Rect.mem_set_unit]
  exact Iff.rfl

/-- The 25 blocks of 2000 rows cover the 50000 rows, so the result array ends holding the whole-array update. -/
theorem final (c : Dev nD) : (dats m 0 c).arrAt 8 cfg0.N = result m c :=
  (dats m 0 c).arrAt_eq_of_cover 8 (result m c) (fun t _ => flushed_eq m c t) fun i => by
    have hN : grid0.N = 25 := N_0
    have hi0 : (i 0).val < 50000 := (i 0).isLt
    have hi1 : (i 1).val < 64 := (i 1).isLt
    have hq : (i 0).val / 2000 < grid0.N := by rw [hN]; omega
    obtain ⟨e0, e1⟩ := index8 ⟨(i 0).val / 2000, hq⟩
    refine ⟨⟨(i 0).val / 2000, hq⟩, flush0_8 _, ?_⟩
    rw [mem_block]
    intro a
    match a with
    | ⟨0, _⟩ =>
      show win0_8.index ⟨(i 0).val / 2000, hq⟩ (0 : Fin 2) * 2000 ≤ (i 0).val
        ∧ (i 0).val < win0_8.index ⟨(i 0).val / 2000, hq⟩ (0 : Fin 2) * 2000 + 2000
      rw [e0]; show (i 0).val / 2000 * 2000 ≤ (i 0).val ∧ (i 0).val < (i 0).val / 2000 * 2000 + 2000; omega
    | ⟨1, _⟩ =>
      show win0_8.index ⟨(i 0).val / 2000, hq⟩ (1 : Fin 2) * 64 ≤ (i 1).val
        ∧ (i 1).val < win0_8.index ⟨(i 0).val / 2000, hq⟩ (1 : Fin 2) * 64 + 64
      rw [e1]; omega

/-- The kernel's run: the result array ends holding the whole-array update, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.ReferenceRow.lean ====
/-
  The reference's result, entry by entry, is the node update.

  The host program forms the two arrays of edge means, repeats the context down the 50000 rows, joins the four
  feature groups along the columns, and applies the two layers as whole-array products with the biases repeated
  down the rows. Read at entry `(P, c)`: a whole-array product is the sum over the contracted coordinate of row
  `P` against column `c`, a repeated bias reads its column, and row `P` of the joined array is the feature row of
  node `P`. The two arrays of edge means are carried as they stand (segment sums divided by the clamped counts):
  the kernel's program computes them by the same host operations, so they are never opened.
-/
import proofs.«128134_j2740189135078_2_alg».proof.Proof.Gen.ReferenceIdeal.Read
import proofs.«128134_j2740189135078_2_alg».proof.Proof.NodeUpdate
import Idealize.ShloMosaic.Lib.Pipeline.Value
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx
open Cert.NodeUpdate Cert.Lib.ConcatFour

/-- Row `P` of the joined array is the feature row of node `P`; the repeated context reads the context vector at the
    column. -/
theorem features_apply (x0 : (⟨S50000x64, .f32⟩ : BufTy).Contents (Elt Ideal)) (x1 : (⟨S1600000x32, .f32⟩ : BufTy).Contents (Elt Ideal))
    (x2 : (⟨S32, .f32⟩ : BufTy).Contents (Elt Ideal)) (x7 x8 : (⟨S1600000, .i32⟩ : BufTy).Contents (Elt Ideal))
    (P : Fin 50000) (j : Fin 160) :
    val_main_v24 (F := Ideal) x0 x1 x2 x7 x8 (ix2 P j)
      = features (fun q => val_main_v10 (F := Ideal) x1 x7 (ix2 P q)) (fun q => val_main_v21 (F := Ideal) x1 x8 (ix2 P q))
          (fun q => x0 (ix2 P q)) (fun q => x2 (ix1 q)) j := by
  unfold val_main_v24
  refine (concat4_apply (N := 160) rfl _ _ _ _ _ P j).trans ?_
  unfold features
  have e : (fun q : Fin 32 => val_main_v23 (F := Ideal) x2 (ix2 P q)) = fun q => x2 (ix1 q) := funext fun q => by
    rw [val_main_v23_apply, val_main_v22_apply]
    exact congrArg x2 (funext fun a => Fin.ext (by match a with | ⟨0, _⟩ => rfl))
  rw [e]

/-- Hidden unit `k` of node `P`: the first whole-array product read at `(P, k)`, plus the bias at column `k`,
    rectified against the repeated zero. -/
theorem hidden_apply (x0 : (⟨S50000x64, .f32⟩ : BufTy).Contents (Elt Ideal)) (x1 : (⟨S1600000x32, .f32⟩ : BufTy).Contents (Elt Ideal))
    (x2 : (⟨S32, .f32⟩ : BufTy).Contents (Elt Ideal)) (x3 : (⟨S160x256, .f32⟩ : BufTy).Contents (Elt Ideal))
    (x4 : (⟨S256, .f32⟩ : BufTy).Contents (Elt Ideal)) (x7 x8 : (⟨S1600000, .i32⟩ : BufTy).Contents (Elt Ideal))
    (P : Fin 50000) (k : Fin 256) :
    val_main_v29 (F := Ideal) x0 x1 x2 x3 x4 x7 x8 (ix2 P k)
      = hidden (features (fun q => val_main_v10 (F := Ideal) x1 x7 (ix2 P q)) (fun q => val_main_v21 (F := Ideal) x1 x8 (ix2 P q))
          (fun q => x0 (ix2 P q)) (fun q => x2 (ix1 q))) x3 (fun k => x4 (ix1 k)) k := by
  rw [val_main_v29_apply, val_main_v28_apply, val_main_v25_apply, val_main_v27_apply, val_main_v26_apply,
    val_main_call0_v0_apply, val_main_call0_cst_apply]
  have el : ∀ j : Fin 160, lidx_main_v25 (ix2 P k) j = ix2 P j := fun j => funext fun a => Fin.ext (by
    match a with | ⟨0, _⟩ => rfl | ⟨1, _⟩ => rfl)
  have er : ∀ j : Fin 160, ridx_main_v25 (ix2 P k) j = ix2 j k := fun j => funext fun a => Fin.ext (by
    match a with | ⟨0, _⟩ => rfl | ⟨1, _⟩ => rfl)
  have eb : idx_main_v26 (idx_main_v27 (ix2 P k)) = ix1 k := funext fun a => Fin.ext (by
    match a with | ⟨0, _⟩ => rfl)
  simp only [el, er, eb, features_apply]
  rfl

/-- The reference's result is the node update of the two arrays of edge means, the nodes' own features, the
    context and the weights. -/
theorem result_eq (x0 : (⟨S50000x64, .f32⟩ : BufTy).Contents (Elt Ideal)) (x1 : (⟨S1600000x32, .f32⟩ : BufTy).Contents (Elt Ideal))
    (x2 : (⟨S32, .f32⟩ : BufTy).Contents (Elt Ideal)) (x3 : (⟨S160x256, .f32⟩ : BufTy).Contents (Elt Ideal))
    (x4 : (⟨S256, .f32⟩ : BufTy).Contents (Elt Ideal)) (x5 : (⟨S256x64, .f32⟩ : BufTy).Contents (Elt Ideal))
    (x6 : (⟨S64, .f32⟩ : BufTy).Contents (Elt Ideal)) (x7 x8 : (⟨S1600000, .i32⟩ : BufTy).Contents (Elt Ideal)) :
    val_main_v33 (F := Ideal) x0 x1 x2 x3 x4 x5 x6 x7 x8
      = update (val_main_v10 (F := Ideal) x1 x7) (val_main_v21 (F := Ideal) x1 x8) x0 x2 x3 x4 x5 x6 := by
  funext i
  obtain ⟨P, c, rfl⟩ : ∃ (P : Fin 50000) (c : Fin 64), i = ix2 P c := ⟨i 0, i 1, eq_ix2 i⟩
  rw [val_main_v33_apply, val_main_v30_apply, val_main_v32_apply, val_main_v31_apply]
  have el : ∀ k : Fin 256, lidx_main_v30 (ix2 P c) k = ix2 P k := fun k => funext fun a => Fin.ext (by
    match a with | ⟨0, _⟩ => rfl | ⟨1, _⟩ => rfl)
  have er : ∀ k : Fin 256, ridx_main_v30 (ix2 P c) k = ix2 k c := fun k => funext fun a => Fin.ext (by
    match a with | ⟨0, _⟩ => rfl | ⟨1, _⟩ => rfl)
  have eb : idx_main_v31 (idx_main_v32 (ix2 P c)) = ix1 c := funext fun a => Fin.ext (by
    match a with | ⟨0, _⟩ => rfl)
  simp only [el, er, eb, hidden_apply]
  rfl

end Cert.ReferenceIdeal.RefValue

end
-- ==== Proof.EdgeMeans.lean ====
/-
  The two arrays of edge means are the same in both programs.

  Each program's host code forms, for the receivers and for the senders, the segment sum of the edge features
  scattered into 50000 zero rows, the segment count (ones scattered into zeros), clamps the count below by one and
  divides. The kernel's program does this before its region, the reference before its concatenation — the same
  operations on the same arguments, one after the other. So the array the region finds is, as a term, the
  reference's stage: nothing about scatter-adds or division on the extended reals is needed, only that the two texts
  spell one function.
-/
import proofs.«128134_j2740189135078_2_alg».proof.Proof.Gen.KernelIdeal.Frame
import proofs.«128134_j2740189135078_2_alg».proof.Proof.Gen.ReferenceIdeal.Read
import Idealize.ShloMosaic.Lib.StableHlo.Run

noncomputable section

namespace Cert.EdgeMeans

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 1000000 in
/-- The array of incoming means the region finds is the reference's stage of the edge features and the receivers. -/
theorem inMean_eq (c : Dev nD) :
    (V m c main_v10 : S50000x32.Idx → EReal)
      = Cert.ReferenceIdeal.Read.val_main_v10 (F := Ideal) (m ((c : Thread nD τ).loc main_arg1)) (m ((c : Thread nD τ).loc main_arg7)) := by
  dsimp only [Gen.V, Gen.hostOps0]; after_results_simp; rfl

set_option maxHeartbeats 1000000 in
/-- The array of outgoing means the region finds is the reference's stage of the edge features and the senders. -/
theorem outMean_eq (c : Dev nD) :
    (V m c main_v21 : S50000x32.Idx → EReal)
      = Cert.ReferenceIdeal.Read.val_main_v21 (F := Ideal) (m ((c : Thread nD τ).loc main_arg1)) (m ((c : Thread nD τ).loc main_arg8)) := by
  dsimp only [Gen.V, Gen.hostOps0]; after_results_simp; rfl

end Cert.EdgeMeans

end
-- ==== Proof.lean ====
/-
  The certificate of the graph-network node update: a Pallas kernel that, per block of 2000 nodes, lays the incoming
  and outgoing edge means, the nodes' own features and a shared context side by side and applies a two-layer
  perceptron (160 → 256 → 64, rectified in between) on the matrix unit, against the same computation written as
  whole-array operations on the host.

  On the extended reals both programs compute, for node `r` and output `c`,

      ∑ k, max (∑ j, x r j · W1 (j, k) + b1 k) 0 · W2 (k, c) + b2 c,

  with `x r` the 160 features of node `r` (`Proof/NodeUpdate.lean`). The kernel's roundings to bf16 are the identity
  there, a matrix product into a zero accumulator is the plain sum over the contracted coordinate
  (`Proof/KernelRow.lean`), and the 25 blocks of 2000 rows tile the 50000 rows (`Proof/KernelArray.lean`); the
  reference's whole-array products and repeated biases read the same sums entry by entry
  (`Proof/ReferenceRow.lean`). The edge means — segment sums divided by clamped segment counts — are formed by the
  same host operations in both programs and are carried unopened (`Proof/EdgeMeans.lean`). No step re-associates
  or distributes a sum, so the inputs' finiteness is never used.

  The three frames are the generated ones (the reference's frame is its generated run with the result dropped);
  the idealization rewrote nothing, so `preserves` is trivial.
-/
import proofs.«128134_j2740189135078_2_alg».proof.Defs
import proofs.«128134_j2740189135078_2_alg».proof.Proof.Gen.Kernel
import proofs.«128134_j2740189135078_2_alg».proof.Proof.Gen.Kernel.Skeleton
import proofs.«128134_j2740189135078_2_alg».proof.Proof.Gen.Kernel.Launch
import proofs.«128134_j2740189135078_2_alg».proof.Proof.Gen.Kernel.Points
import proofs.«128134_j2740189135078_2_alg».proof.Proof.Gen.Kernel.Frame
import proofs.«128134_j2740189135078_2_alg».proof.Proof.Gen.KernelIdeal
import proofs.«128134_j2740189135078_2_alg».proof.Proof.Gen.KernelIdeal.Skeleton
import proofs.«128134_j2740189135078_2_alg».proof.Proof.Gen.KernelIdeal.Launch
import proofs.«128134_j2740189135078_2_alg».proof.Proof.Gen.KernelIdeal.Points
import proofs.«128134_j2740189135078_2_alg».proof.Proof.Gen.KernelIdeal.Frame
import proofs.«128134_j2740189135078_2_alg».proof.Proof.Gen.ReferenceIdeal
import proofs.«128134_j2740189135078_2_alg».proof.Proof.Gen.Pre_finite_inputs
import proofs.«128134_j2740189135078_2_alg».proof.Proof.Gen.KernelIdeal.Value
import proofs.«128134_j2740189135078_2_alg».proof.Proof.Gen.ReferenceIdeal.Run
import proofs.«128134_j2740189135078_2_alg».proof.Proof.Gen.ReferenceIdeal.Read
import proofs.«128134_j2740189135078_2_alg».proof.Proof.KernelArray
import proofs.«128134_j2740189135078_2_alg».proof.Proof.ReferenceRow
import proofs.«128134_j2740189135078_2_alg».proof.Proof.EdgeMeans
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the node update of the edge means and the argument arrays: the kernel's result array by
    its blocks, the reference's by its stages read entry by entry; the edge means are one term in both. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v33_eq, Cert.ReferenceIdeal.RefValue.result_eq, a0, a1, a2, a3, a4, a5, a6, a7, a8]
  unfold Cert.KernelIdeal.Whole.result
  beta_reduce
  rw [Cert.EdgeMeans.inMean_eq m c, Cert.EdgeMeans.outMean_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
